-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : IVec S800000 32) (main_arg4 : IVec S800000 32) (main_arg5 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S10000x128 : Shape := ⟨2, ![10000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 27
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000x128, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .bf16⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, stated once over literal shapes and free of either program.

  * `product x w`: the dense product of an n-by-128 array with a 128-by-128 array; entry (r, c) is the sum over k of
    x[r, k] * w[k, c] on the extended reals.  A product of sums of this kind does not depend on how the rows are
    tiled: rows of a block of x times w are the same rows of x times w (`product_rows`).
  * `aggregate`: graph message passing over an edge list.  A negative source index is shifted up by the node count,
    row `col[e]` of the node features is gathered for every edge e, scaled by the edge weight `val[e]`, the scaled
    rows are summed into their destination rows `row[e]` starting from zero, and the bias is added to every row.
    It is a function of the node features: applied to equal node features, with equal bias, indices and weights, it
    gives equal results.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- Node features: 50000 nodes, 128 features each. -/
abbrev Nodes : Shape := ⟨2, ![50000, 128]⟩
/-- The weight matrix. -/
abbrev Weights : Shape := ⟨2, ![128, 128]⟩
/-- One feature row. -/
abbrev Feat : Shape := ⟨1, ![128]⟩
/-- One entry per edge. -/
abbrev Edges : Shape := ⟨1, ![800000]⟩
abbrev Scalar0 : Shape := ⟨0, ![]⟩
abbrev EdgeCol : Shape := ⟨2, ![800000, 1]⟩
abbrev EdgeRows : Shape := ⟨2, ![800000, 128]⟩
abbrev FeatRow : Shape := ⟨2, ![1, 128]⟩

/-- The dense product of an n-by-128 array with a 128-by-128 array: entry (r, c) is the sum over k of
    x[r, k] * w[k, c]. -/
def product {n : Nat} (x : (⟨2, ![n, 128]⟩ : Shape).Idx → EReal) (w : Weights.Idx → EReal) :
    (⟨2, ![n, 128]⟩ : Shape).Idx → EReal :=
  fun i => ∑ k : Fin 128, x (ix2 (n0 := n) (n1 := 128) (i 0) k) * w (ix2 (n0 := 128) (n1 := 128) k (i 1))

/-- Row r of a product depends on row r of the left factor only: if row `j 0` of a block `xb` is row `i 0` of `x`,
    the right factors agree on column `j 1` / `i 1`, then entry j of the block's product is entry i of the whole
    product. -/
theorem product_rows {n n' : Nat} (x : (⟨2, ![n, 128]⟩ : Shape).Idx → EReal) (w : Weights.Idx → EReal)
    (xb : (⟨2, ![n', 128]⟩ : Shape).Idx → EReal) (wb : Weights.Idx → EReal)
    (j : (⟨2, ![n', 128]⟩ : Shape).Idx) (i : (⟨2, ![n, 128]⟩ : Shape).Idx)
    (hx : ∀ k : Fin 128, xb (ix2 (n0 := n') (n1 := 128) (j 0) k) = x (ix2 (n0 := n) (n1 := 128) (i 0) k))
    (hw : ∀ k : Fin 128, wb (ix2 (n0 := 128) (n1 := 128) k (j 1)) = w (ix2 (n0 := 128) (n1 := 128) k (i 1))) :
    product xb wb j = product x w i := by
  unfold product
  exact Finset.sum_congr rfl fun k _ => by rw [hx k, hw k]

/-- Graph message passing over the edge list, as the host operations spell it: the source indices `col` with the
    negative ones shifted up by 50000, the gathered rows of `feat`, each scaled by its edge weight, summed into the
    destination rows `row` from zero, plus the bias on every row.  The records `g`, `sc` are the gather's and the
    scatter's dimension numbers and `b1` … `b6` the shape facts of the broadcasts; each program supplies its own. -/
def aggregate (g : GatherDims Nodes EdgeCol EdgeRows) (sc : ScatterDims Nodes EdgeCol EdgeRows)
    (b1 : Scalar0.BroadcastsInDim Edges (![] : Fin 0 → Fin Edges.rank))
    (b2 : Edges.BroadcastsInDim EdgeCol (![0] : Fin 1 → Fin EdgeCol.rank))
    (b3 : EdgeCol.BroadcastsInDim EdgeRows (![0, 1] : Fin 2 → Fin EdgeRows.rank))
    (b4 : Scalar0.BroadcastsInDim Nodes (![] : Fin 0 → Fin Nodes.rank))
    (b5 : Feat.BroadcastsInDim FeatRow (![1] : Fin 1 → Fin FeatRow.rank))
    (b6 : FeatRow.BroadcastsInDim Nodes (![0, 1] : Fin 2 → Fin Nodes.rank))
    (feat : Nodes.Idx → EReal) (bias : Feat.Idx → EReal) (row col : Edges.Idx → BitVec 32) (val : Edges.Idx → EReal) :
    Nodes.Idx → EReal :=
  addf (F := Ideal) (φ := .f32)
    (Host.scatterAdd (F := Ideal) (φ := .f32) sc
      (broadcastInDim Nodes ![] b4 (constant (F := Ideal) Scalar0 .f32 0x00000000#32))
      (broadcastInDim EdgeCol ![0] b2 row)
      (mulf (F := Ideal) (φ := .f32)
        (Host.gather g feat
          (broadcastInDim EdgeCol ![0] b2
            (select (cmpi .slt col (broadcastInDim Edges ![] b1 (constantI Scalar0 32 0#32)))
              (addi col (broadcastInDim Edges ![] b1 (constantI Scalar0 32 50000#32))) col)))
        (broadcastInDim EdgeRows ![0, 1] b3 (broadcastInDim EdgeCol ![0] b2 val))))
    (broadcastInDim Nodes ![0, 1] b6 (broadcastInDim FeatRow ![1] b5 bias))

/-- The dimension records only carry proofs beside their literal fields, so two programs' records that spell the same
    fields give the same function. -/
theorem aggregate_congr {g g' : GatherDims Nodes EdgeCol EdgeRows} {sc sc' : ScatterDims Nodes EdgeCol EdgeRows}
    (hg : g = g') (hsc : sc = sc') (b1 b1' b2 b2' b3 b3' b4 b4' b5 b5' b6 b6')
    (feat : Nodes.Idx → EReal) (bias : Feat.Idx → EReal) (row col : Edges.Idx → BitVec 32) (val : Edges.Idx → EReal) :
    aggregate g sc b1 b2 b3 b4 b5 b6 feat bias row col val = aggregate g' sc' b1' b2' b3' b4' b5' b6' feat bias row col val := by
  subst hg; subst hsc; rfl

end Cert.GraphConv

end
-- ==== Proof.Body.lean ====
/-
  The kernel body, read.  At every grid point it loads a 10000-by-128 block of x and the whole 128-by-128 weight
  array, rounds both to bf16 (the identity on the extended reals), multiplies them on the matrix unit into a zero
  accumulator, rounds the result to bf16 (again the identity) and stores it.  A matrix product into a zero
  accumulator, contracting the block's second axis with the weights' first, is at entry (r, c) zero plus the sum
  over k of block[r, k] * w[k, c]: the dense product of the block with the weights.
-/
import proofs.«146122_j4664334483852_2_alg».proof.Proof.Gen.KernelIdeal.Skeleton
import proofs.«146122_j4664334483852_2_alg».proof.Proof.Spec

noncomputable section

namespace Cert.GraphConv.Body

open Idealize.ShloMosaic Idealize.ShloMosaic.ValueIdx Cert.KernelIdeal Cert.KernelIdeal.Gen Cert.GraphConv

/-- The left operand of the body's matrix product at output entry i and contraction step q is read in row `i 0`. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … and in the column the contraction step names. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand is read in the row the contraction step names … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and in column `i 1`. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The matrix product of a block with the weights into a zero accumulator is their dense product. -/
theorem matmul_eq_product (xb : FVec Ideal S10000x128 .bf16) (wb : FVec Ideal S128x128 .bf16) :
    matmul (F := Ideal) dot_S10000x128_S128x128_S10000x128_1_0_0_1_n_n none xb wb (constant (F := Ideal) S10000x128 .f32 0x00000000#32)
      = product (n := 10000) xb wb := by
  funext i
  refine (Ideal.matmul_constant_zero_apply dot_S10000x128_S128x128_S10000x128_1_0_0_1_n_n none xb wb i).trans ?_
  unfold product
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k)
      = ix2 (n0 := 10000) (n1 := 128) (i 0) k := funext fun a => Fin.ext (by
    match a with
    | ⟨0, _⟩ => exact lhs_row _ _
    | ⟨1, _⟩ => exact (lhs_col _ _).trans hk)
  have er : dot_S10000x128_S128x128_S10000x128_1_0_0_1_n_n.rhsIdx i ((ValueIdx.contrEquiv1 dot_S10000x128_S128x128_S10000x128_1_0_0_1_n_n 128 rfl rfl).symm k)
      = ix2 (n0 := 128) (n1 := 128) k (i 1) := funext fun a => Fin.ext (by
    match a with
    | ⟨0, _⟩ => exact (rhs_row _ _).trans hk
    | ⟨1, _⟩ => exact rhs_col _ _)
  rw [el, er]

/-- What the body stores, as a function of its two loaded blocks: their dense product (the three roundings are the
    identity on the extended reals). -/
theorem payload_eq_product (x0 : Vec Ideal S10000x128 .f32) (x1 : Vec Ideal S128x128 .f32) :
    k0_pay1 (F := Ideal) x0 x1 = product (n := 10000) x0 x1 :=
  matmul_eq_product x0 x1

end Cert.GraphConv.Body

end
-- ==== Proof.Features.lean ====
/-
  The node-feature array after the kernel's region.  The grid has five points; point t loads rows
  10000 t … 10000 t + 9999 of x and all of the weights, and writes back the same rows of the output array.  What it
  writes is the dense product of its block of x with the weights, and a product's rows depend on the same rows of the
  left factor only, so block t of the output is block t of the dense product of ALL of x with the weights.  The five
  blocks tile the 50000 rows (row r lies in block r / 10000), so after the run the whole array is that product.
-/
import proofs.«146122_j4664334483852_2_alg».proof.Proof.Gen.KernelIdeal.Frame
import proofs.«146122_j4664334483852_2_alg».proof.Proof.Body
import Idealize.ShloMosaic.Lib.Pipeline.Value

set_option maxRecDepth 16384

noncomputable section

namespace Cert.GraphConv.Features

open Idealize.ShloMosaic Idealize.ShloMosaic.TcCoe Idealize.ShloMosaic.ValueIdx Idealize.SL.Sem
open Cert.KernelIdeal Cert.KernelIdeal.Gen Cert.GraphConv

variable (m : (ℓ : Loc nD τ sig) → Buf (Elt Ideal) ℓ)

theorem offsets_zero : (![0, 0] : Fin 2 → Nat) = fun _ => 0 := funext fun a => by fin_cases a <;> rfl

/-- The printed index maps, decided over the five grid points: the block of x moves with the output's block along
    the rows, every block sits at column block 0, the weights' block never moves, and the output's row block is
    one of 0 … 4. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block 0 … 4 is some point's. -/
theorem every_block : ∀ q : Fin 5, ∃ t : Fin cfg0.N, win0_2.index t = ![q.val, 0] :=
  (by decide +kernel : ∀ q : Fin 5, ∃ t : Fin grid0.N, win0_2.index t = ![q.val, 0])

/-- What point t writes back is block t of the dense product of x and the weights as the region finds them. -/
theorem flushed_eq (c : Dev nD) (t : Fin cfg0.N) :
    (dats m 0 c).flushed 2 t
      = ((cfg0.win 2).blk t).view.read (Elt Ideal) (product (n := 50000) (V m c main_arg0) (V m c main_arg1)) := by
  show (cfg0.win 2).cut (grid0.coords t) ((dats m 0 c).after 2 t) = _
  rw [after0_2]
  unfold out0_2
  rw [View.canon_unit_zero offsets_zero]
  simp only [View.ld_unit_zero (S := S10000x128) offsets_zero, View.ld_unit_zero (S := S128x128) offsets_zero]
  rw [Body.payload_eq_product]
  obtain ⟨e0, e1, e2, e3, e4, _⟩ := index_maps t
  funext j
  show product (n := 10000) (iblk m c 0 t) (iblk m c 1 t) j
    = product (n := 50000) (V m c main_arg0) (V m c main_arg1) (((cfg0.win 2).blk t).view.emb j)
  refine product_rows _ _ _ _ j _ (fun k => ?_) (fun k => ?_)
  · show V m c main_arg0 (((cfg0.win 0).blk t).view.emb (ix2 (n0 := 10000) (n1 := 128) (j 0) k))
      = V m c main_arg0 (ix2 (n0 := 50000) (n1 := 128) ((((cfg0.win 2).blk t).view.emb j) 0) k)
    refine congrArg (V m c main_arg0) ?_
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V m c main_arg1 (((cfg0.win 1).blk t).view.emb (ix2 (n0 := 128) (n1 := 128) k (j 1)))
      = V m c main_arg1 (ix2 (n0 := 128) (n1 := 128) k ((((cfg0.win 2).blk t).view.emb j) 1))
    refine congrArg (V m c main_arg1) ?_
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the array is in point t's block iff each coordinate is in the block's range on its axis. -/
theorem mem_block (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The five blocks tile the array: row r lies in the block of point r / 10000, and every point writes back. -/
theorem blocks_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the region the output array holds the dense product of x and the weights as launched. -/
theorem features (c : Dev nD) :
    (dats m 0 c).arrAt 2 cfg0.N
      = product (n := 50000) (m ((c : Thread nD τ).loc main_arg0)) (m ((c : Thread nD τ).loc main_arg1)) :=
  (dats m 0 c).arrAt_eq_of_cover 2 _ (fun t _ => flushed_eq m c t) blocks_cover

end Cert.GraphConv.Features

end
-- ==== Proof.KernelRun.lean ====
/-
  The kernel program, read to its result.  After the region the host gathers rows of the node-feature array by
  the source indices, widens them from bf16 to f32 (the identity on the extended reals), scales them by the edge
  weights, sums them into their destination rows and adds the bias.  The node-feature array holds the dense product
  of x and the weights, and the other operands are the arguments as launched, so the result is message passing over
  that product.
-/
import proofs.«146122_j4664334483852_2_alg».proof.Proof.Gen.KernelIdeal.Frame
import proofs.«146122_j4664334483852_2_alg».proof.Proof.Features
import Idealize.ShloMosaic.Lib.StableHlo.Run

set_option maxRecDepth 16384

noncomputable section

namespace Cert.GraphConv.KernelRun

open Idealize.ShloMosaic Idealize.ShloMosaic.TcCoe Idealize.ShloMosaic.ValueIdx Idealize.SL.Sem Idealize.ShloMosaic.StableHlo
open Cert.KernelIdeal Cert.KernelIdeal.Gen Cert.GraphConv

variable (m : (ℓ : Loc nD τ sig) → Buf (Elt Ideal) ℓ)

/-- What the host operations after the region find in the node-feature array: what the region left there. -/
theorem found_features (c : Dev nD) :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- The bias, the two index arrays and the edge weights are no array of the region: the host operations find them
    as launched. -/
theorem found_bias (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)
theorem found_row (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans
    (V_main_arg3 m c)
theorem found_col (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4 (by exact (by decide : ∀ w, Pipeline.arrRef spec0 w ≠ main_arg4))).trans
    (V_main_arg4 m c)
theorem found_val (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_of_ne _ c (V0 m c) _ main_arg5 (by exact (by decide : ∀ w, Pipeline.arrRef spec0 w ≠ main_arg5))).trans
    (V_main_arg5 m c)

set_option maxHeartbeats 2000000 in
/-- The result buffer after the host operations that follow the region: message passing over the dense product of
    x and the weights, with the bias, the indices and the edge weights as launched. -/
theorem result_eq (c : Dev nD) :
    Pipeline.afterTail₀ cfgs (dats m) 0 (V0 m) [hostOps1] c main_v17
      = aggregate gather_S50000x128_S800000x1_S800000x128_1_0_n_n_0_1_1128 scatter_S50000x128_S800000x1_S800000x128_1_0_0_1
          Facts₀.bcast_S_S800000 Facts₀.bcast_S800000_S800000x1_0 Facts₀.bcast_S800000x1_S800000x128_0_1 Facts₀.bcast_S_S50000x128
          Facts₀.bcast_S128_S1x128_1 Facts₀.bcast_S1x128_S50000x128_0_1
          (product (n := 50000) (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) := by
  unfold Pipeline.afterTail₀
  show StableHlo.after hostOps1 _ (Proc.devRef .tc main_v17) = _
  after_results
  rw [found_features m c, found_bias m c, found_row m c, found_col m c, found_val m c, Features.features m c]
  rfl

/-- Every weakly fair execution of the kernel program terminates with its result at message passing over the dense
    product of x and the weights, and its six arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v17) = aggregate gather_S50000x128_S800000x1_S800000x128_1_0_n_n_0_1_1128 scatter_S50000x128_S800000x1_S800000x128_1_0_0_1
          Facts₀.bcast_S_S800000 Facts₀.bcast_S800000_S800000x1_0 Facts₀.bcast_S800000x1_S800000x128_0_1 Facts₀.bcast_S_S50000x128
          Facts₀.bcast_S128_S1x128_1 Facts₀.bcast_S1x128_S50000x128_0_1
          (product (n := 50000) (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v17 (Pipeline.mem_restRefs_of main_v17 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.GraphConv.KernelRun

end
-- ==== Proof.RefRead.lean ====
/-
  The reference, read.  Its node features are `dot_general` of x and the weights, contracting x's second axis with
  the weights' first: entry (r, c) is the sum over k of x[r, k] * w[k, c], which is the dense product.  Everything
  after that is the message-passing tail applied to those features.
-/
import proofs.«146122_j4664334483852_2_alg».proof.Proof.Gen.ReferenceIdeal.Run
import proofs.«146122_j4664334483852_2_alg».proof.Proof.Gen.ReferenceIdeal.Read
import proofs.«146122_j4664334483852_2_alg».proof.Proof.Spec

noncomputable section

namespace Cert.GraphConv.Ref

open Idealize.ShloMosaic Idealize.ShloMosaic.ValueIdx Cert.ReferenceIdeal Cert.ReferenceIdeal.Gen Cert.GraphConv

/-- The reference's `dot_general` is the dense product: the left operand is read at (r, k), the right at (k, c). -/
theorem dot_eq_product (x0 : Nodes.Idx → EReal) (x1 : Weights.Idx → EReal) :
    Host.dotGeneral (F := Ideal) (φ₁ := .f32) (φ₂ := .f32) dot_S50000x128_S128x128_S50000x128_1_0_0_1_n_n none x0 x1
      = product x0 x1 := by
  funext i
  refine (Read.val_main_v0_apply x0 x1 i).trans ?_
  unfold product
  refine Finset.sum_congr rfl fun k _ => ?_
  have el : Read.lidx_main_v0 i k = ix2 (n0 := 50000) (n1 := 128) (i 0) k :=
    funext fun a => Fin.ext (by match a with | ⟨0, _⟩ => rfl | ⟨1, _⟩ => rfl)
  have er : Read.ridx_main_v0 i k = ix2 (n0 := 128) (n1 := 128) k (i 1) :=
    funext fun a => Fin.ext (by match a with | ⟨0, _⟩ => rfl | ⟨1, _⟩ => rfl)
  rw [el, er]

/-- The reference's result, as its run states it, is message passing over the dense product of x and the weights. -/
theorem result_eq (x0 : Nodes.Idx → EReal) (x1 : Weights.Idx → EReal) (x2 : Feat.Idx → EReal)
    (x3 x4 : Edges.Idx → BitVec 32) (x5 : Edges.Idx → EReal) :
    addf (F := Ideal) (φ := .f32) (Host.scatterAdd (F := Ideal) (φ := .f32) scatter_S50000x128_S800000x1_S800000x128_1_0_0_1 (broadcastInDim S50000x128 ![] Facts₀.bcast_S_S50000x128 (constant (F := Ideal) S_ .f32 0x00000000#32)) (broadcastInDim S800000x1 ![0] Facts₀.bcast_S800000_S800000x1_0 (x3)) (mulf (F := Ideal) (φ := .f32) (Host.gather gather_S50000x128_S800000x1_S800000x128_1_0_n_n_0_1_1128 (Host.dotGeneral (F := Ideal) (φ₁ := .f32) (φ₂ := .f32) dot_S50000x128_S128x128_S50000x128_1_0_0_1_n_n none (x0) (x1)) (broadcastInDim S800000x1 ![0] Facts₀.bcast_S800000_S800000x1_0 (select (cmpi .slt (x4) (broadcastInDim S800000 ![] Facts₀.bcast_S_S800000 (constantI S_ 32 0#32))) (addi (x4) (broadcastInDim S800000 ![] Facts₀.bcast_S_S800000 (constantI S_ 32 50000#32))) (x4)))) (broadcastInDim S800000x128 ![0, 1] Facts₀.bcast_S800000x1_S800000x128_0_1 (broadcastInDim S800000x1 ![0] Facts₀.bcast_S800000_S800000x1_0 (x5))))) (broadcastInDim S50000x128 ![0, 1] Facts₀.bcast_S1x128_S50000x128_0_1 (broadcastInDim S1x128 ![1] Facts₀.bcast_S128_S1x128_1 (x2)))
      = aggregate gather_S50000x128_S800000x1_S800000x128_1_0_n_n_0_1_1128 scatter_S50000x128_S800000x1_S800000x128_1_0_0_1
          Facts₀.bcast_S_S800000 Facts₀.bcast_S800000_S800000x1_0 Facts₀.bcast_S800000x1_S800000x128_0_1 Facts₀.bcast_S_S50000x128
          Facts₀.bcast_S128_S1x128_1 Facts₀.bcast_S1x128_S50000x128_0_1 (product x0 x1) x2 x3 x4 x5 := by
  rw [dot_eq_product x0 x1]
  rfl

end Cert.GraphConv.Ref

end
-- ==== Proof.lean ====
/-
  Graph convolution: out = segment_sum(val[e] * (x · W)[col[e]], row[e]) + bias, over 50000 nodes, 128 features and
  800000 edges.  The kernel program computes x · W block by block (five blocks of 10000 rows) on the matrix unit
  from bf16-rounded operands and stores it in bf16; the reference computes it with one `dot_general` in f32.  On the
  extended reals every rounding and widening is the identity, a matrix product into a zero accumulator and a
  `dot_general` are the same sum over k of x[r, k] * W[k, c], and that sum for a row uses that row of x only, so the
  tiling does not matter: both programs hold the same dense product as their node features.  Both then apply the
  same message-passing operations to it (index shift, gather, scaling, scatter-add into zeros, bias), so their
  results are equal.  No step uses finiteness of the inputs: the two sides are the same sums in the same order.

  The three frames are the generated ones (the reference's is its generated run with the result dropped), and the
  idealization rewrote nothing, so `preserves` is `True`.
-/
import proofs.«146122_j4664334483852_2_alg».proof.Defs
import proofs.«146122_j4664334483852_2_alg».proof.Proof.Gen.Kernel
import proofs.«146122_j4664334483852_2_alg».proof.Proof.Gen.Kernel.Frame
import proofs.«146122_j4664334483852_2_alg».proof.Proof.Gen.KernelIdeal
import proofs.«146122_j4664334483852_2_alg».proof.Proof.Gen.KernelIdeal.Frame
import proofs.«146122_j4664334483852_2_alg».proof.Proof.Gen.ReferenceIdeal
import proofs.«146122_j4664334483852_2_alg».proof.Proof.Gen.ReferenceIdeal.Run
import proofs.«146122_j4664334483852_2_alg».proof.Proof.Gen.Pre_finite_inputs
import proofs.«146122_j4664334483852_2_alg».proof.Proof.KernelRun
import proofs.«146122_j4664334483852_2_alg».proof.Proof.RefRead
import Idealize.ShloMosaic.Adequacy
import Idealize.ShloMosaic.Init

noncomputable section

namespace Cert.Proof

open Idealize.ShloMosaic Idealize.ShloMosaic.TcCoe Idealize.SL.Sem Cert.GraphConv

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at message passing over the dense product of x and the weights: the kernel program by its
    run read to the result, the reference by its run and the reading of its `dot_general`; on arguments that agree
    these are one value. -/
theorem algebraic : Cert.algebraic_KernelIdeal_ReferenceIdeal := by
  intro m ρ m' ρ' _ hagree
  refine ⟨_, KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  refine (Ref.result_eq _ _ _ _ _ _).trans ?_
  exact aggregate_congr rfl rfl _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
